-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x32x128 : Shape := ⟨3, ![16, 32, 128]⟩
abbrev S16x1x4096 : Shape := ⟨3, ![16, 1, 4096]⟩
abbrev S1x4096x3 : Shape := ⟨3, ![1, 4096, 3]⟩
abbrev S1x3x1024 : Shape := ⟨3, ![1, 3, 1024]⟩
abbrev S1x32x128 : Shape := ⟨3, ![1, 32, 128]⟩
abbrev S1x1x1024 : Shape := ⟨3, ![1, 1, 1024]⟩
abbrev S1x4096 : Shape := ⟨2, ![1, 4096]⟩
abbrev S1x4096x1024 : Shape := ⟨3, ![1, 4096, 1024]⟩
abbrev S1x4096x1 : Shape := ⟨3, ![1, 4096, 1]⟩
abbrev S1x1024 : Shape := ⟨2, ![1, 1024]⟩
abbrev S16x4096 : Shape := ⟨2, ![16, 4096]⟩
abbrev S_ : Shape := ⟨0, ![]⟩
abbrev S16 : Shape := ⟨1, ![16]⟩

abbrev nBuf : Space → Nat
  | .hbm => 18
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x32x128, .f32⟩
  | .hbm, ⟨4, _⟩ => ⟨S16x1x4096, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .local _ .vmem, ⟨0, _⟩ => ⟨S1x4096x3, .f32⟩
  | .local _ .vmem, ⟨1, _⟩ => ⟨S1x4096x3, .f32⟩
  | .local _ .vmem, ⟨2, _⟩ => ⟨S1x3x1024, .f32⟩
  | .local _ .vmem, ⟨3, _⟩ => ⟨S1x3x1024, .f32⟩
  | .local _ .vmem, ⟨4, _⟩ => ⟨S1x32x128, .f32⟩
  | .local _ .vmem, ⟨5, _⟩ => ⟨S1x32x128, .f32⟩
  | .local _ .vmem, ⟨6, _⟩ => ⟨S1x1x1024, .f32⟩
  | .local _ .vmem, ⟨7, _⟩ => ⟨S1x1x1024, .f32⟩
  | .local _ .vmem, ⟨8, _⟩ => ⟨S1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_15 : BitVec 32 := 0#32
  let v39 : BitVec 1 := Scalar.cmpi .ne v38 c0_i32_15
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x4096x3_S16x3x4096_0_2_1 : S16x4096x3.Transposes [0, 2, 1] S16x3x4096
  inb_S1x4096x3_S1x4096x3_0_0_0 : ∀ a, (![0, 0, 0] : Fin 3 → Nat) a + S1x4096x3.size a ≤ S1x4096x3.size a
  h_S1x4096x3 : 0 < S1x4096x3.numel
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S1x3x1024 : S1x3x1024.ShapeCasts S1x3x1024
  slices_S1x4096x3_o0_0_0_S1x4096x1 : S1x4096x3.Slices ![0, 0, 0] S1x4096x1
  slices_S1x3x1024_o0_0_0_S1x1x1024 : S1x3x1024.Slices ![0, 0, 0] S1x1x1024
  broadcasts_S1x4096x1_S1x4096x1024 : S1x4096x1.Broadcasts S1x4096x1024
  broadcasts_S1x1x1024_S1x4096x1024 : S1x1x1024.Broadcasts S1x4096x1024
  slices_S1x4096x3_o0_0_1_S1x4096x1 : S1x4096x3.Slices ![0, 0, 1] S1x4096x1
  slices_S1x3x1024_o0_1_0_S1x1x1024 : S1x3x1024.Slices ![0, 1, 0] S1x1x1024
  slices_S1x4096x3_o0_0_2_S1x4096x1 : S1x4096x3.Slices ![0, 0, 2] S1x4096x1
  slices_S1x3x1024_o0_2_0_S1x1x1024 : S1x3x1024.Slices ![0, 2, 0] S1x1x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1x4096x1024_S1x4096 : S1x4096x1024.Reduces [2] S1x4096
  reduces_S1x4096x1024_S1x1024 : S1x4096x1024.Reduces [1] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x4096_S1x32x128 : S1x4096.ShapeCasts S1x32x128
  inb_S1x32x128_S1x32x128_0_0_0 : ∀ a, (![0, 0, 0] : Fin 3 → Nat) a + S1x32x128.size a ≤ S1x32x128.size a
  h_S1x32x128 : 0 < S1x32x128.numel
  shapeCasts_S16x32x128_S16x4096 : S16x32x128.ShapeCasts S16x4096
  shapeCasts_S16x1x4096_S16x4096 : S16x1x4096.ShapeCasts S16x4096
  reducesTo_S16x4096_S16_d1 : S16x4096.ReducesTo [1] S16
  h_S_ : 0 < S_.numel
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x4096x3.size a
  hwx0_0 : ∀ i : grid0.Coords, EltTy.bits .f32 = 32 ∨ (Rect.block (s := S16x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S16x3x4096.size a
  hwx0_1 : ∀ i : grid0.Coords, EltTy.bits .f32 = 32 ∨ (Rect.block (s := S16x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S16x32x128.size a
  hwx0_2 : ∀ i : grid0.Coords, EltTy.bits .f32 = 32 ∨ (Rect.block (s := S16x32x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x4096.size a
  hwx0_3 : ∀ i : grid0.Coords, EltTy.bits .f32 = 32 ∨ (Rect.block (s := S16x1x4096) S1x1x1024.size (cc0_transform_3 i) (hinb0_3 i)).WholeWords (EltTy.packing .f32)

variable [Facts₀]

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S16 : Shape := ⟨1, ![16]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x1x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KernelFound.lean ====
/-
  What each control case of the kernel body leaves in its buffers, as values.

  The body runs in three cases, by the position of the tile in its batch: the FIRST tile (the running row minimum is
  reset to +∞, then stepped), a MIDDLE tile (stepped from what the tile before left) and the LAST tile (stepped, then
  re-laid into the row-minimum output).  In every case the column-minimum output receives the tile's column step.
  Each buffer is written by covering stores through its whole extent, so what it holds afterwards is the last
  store's payload, its loads reading whole buffers: the payloads named in the program's skeleton, applied to the
  step's two input blocks and (middle, last) to the running minimum found in the scratch.
-/
import proofs.«124294_j50646254354947_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile -/

/-- The running row minimum after a middle tile: the row step from what it held. -/
theorem scratch_B (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : ¬cond0_0 i) (hc1 : ¬cond0_1 i)
    (x0 : Vec F S1x4096x3 .f32) (x1 : Vec F S1x3x1024 .f32) (xs0 : Vec F S1x4096 .f32) :
    sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz2]
  simp only [View.readAt_eq_ld, harg2.read_unread, harg3.read_unread, harg6.read_unread,
    View.ld_unit_zero (S := S1x4096x3) hz3, View.ld_unit_zero (S := S1x3x1024) hz3, View.ld_unit_zero (S := S1x4096) hz2]

/-- The column-minimum block of a middle tile: the column step. -/
theorem col_B (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : ¬cond0_0 i) (hc1 : ¬cond0_1 i)
    (x0 : Vec F S1x4096x3 .f32) (x1 : Vec F S1x3x1024 .f32) (xs0 : Vec F S1x4096 .f32) :
    out0_B_3 c i arg2 harg2 arg3 harg3 arg4 harg4 arg5 harg5 arg6 harg6 hc0 hc1 x0 x1 xs0 = k0_pay5 x0 x1 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  rw [View.canon_unit_zero hz3]
  simp only [View.readAt_eq_ld, harg2.read_unread, harg3.read_unread, harg6.read_unread,
    View.ld_unit_zero (S := S1x4096x3) hz3, View.ld_unit_zero (S := S1x3x1024) hz3, View.ld_unit_zero (S := S1x4096) hz2]

/-! ## The last tile of a batch -/

/-- The running row minimum after the last tile: the row step from what it held. -/
theorem scratch_C (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : ¬cond0_0 i) (hc1 : cond0_1 i)
    (x0 : Vec F S1x4096x3 .f32) (x1 : Vec F S1x3x1024 .f32) (xs0 : Vec F S1x4096 .f32) :
    sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S1x4096x3) hz3, View.ld_unit_zero (S := S1x3x1024) hz3, View.ld_unit_zero (S := S1x4096) hz2]

/-- The column-minimum block of the last tile: the column step. -/
theorem col_C (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : ¬cond0_0 i) (hc1 : cond0_1 i)
    (x0 : Vec F S1x4096x3 .f32) (x1 : Vec F S1x3x1024 .f32) (xs0 : Vec F S1x4096 .f32) :
    out0_C_3 c i arg2 harg2 arg3 harg3 arg4 harg4 arg5 harg5 arg6 harg6 hc0 hc1 x0 x1 xs0 = k0_pay5 x0 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  rw [View.canon_unit_zero hz3]
  simp only [View.readAt_eq_ld, harg2.read_unread, harg3.read_unread, harg6.read_unread,
    View.ld_unit_zero (S := S1x4096x3) hz3, View.ld_unit_zero (S := S1x3x1024) hz3, View.ld_unit_zero (S := S1x4096) hz2]

/-- The row-minimum block the last tile writes: the running minimum it has just stepped (read back from the
    scratch its own store covered), re-laid. -/
theorem row_C (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : ¬cond0_0 i) (hc1 : cond0_1 i)
    (x0 : Vec F S1x4096x3 .f32) (x1 : Vec F S1x3x1024 .f32) (xs0 : Vec F S1x4096 .f32) :
    out0_C_2 c i arg2 harg2 arg3 harg3 arg4 harg4 arg5 harg5 arg6 harg6 hc0 hc1 x0 x1 xs0 = k0_pay1 (k0_pay4 x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread,
    View.ld_unit_zero (S := S1x4096x3) hz3, View.ld_unit_zero (S := S1x3x1024) hz3, View.ld_unit_zero (S := S1x4096) hz2]

/-! ## The first tile of a batch -/

/-- The running row minimum after the first tile: the row step from the reset value (the reset is stored, read back
    through the store that covered it, and stepped). -/
theorem scratch_A (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : cond0_0 i) (hc1 : ¬cond0_1 i)
    (x0 : Vec F S1x4096x3 .f32) (x1 : Vec F S1x3x1024 .f32) :
    sout0_A_0 c i arg2 harg2 arg3 harg3 arg4 harg4 arg5 harg5 arg6 harg6 hc0 hc1 x0 x1 = k0_pay4 x0 x1 (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread,
    View.ld_unit_zero (S := S1x4096x3) hz3, View.ld_unit_zero (S := S1x3x1024) hz3, View.ld_unit_zero (S := S1x4096) hz2]

/-- The column-minimum block of the first tile: the column step. -/
theorem col_A (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x32x128 .f32) (harg4 : arg4.IsWhole) (arg5 : Memref sig .tc .vmem S1x1x1024 .f32) (harg5 : arg5.IsWhole) (arg6 : Memref sig .tc .vmem S1x4096 .f32) (harg6 : arg6.IsWhole) (hc0 : cond0_0 i) (hc1 : ¬cond0_1 i)
    (x0 : Vec F S1x4096x3 .f32) (x1 : Vec F S1x3x1024 .f32) :
    out0_A_3 c i arg2 harg2 arg3 harg3 arg4 harg4 arg5 harg5 arg6 harg6 hc0 hc1 x0 x1 = k0_pay5 x0 x1 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  rw [View.canon_unit_zero hz3]
  simp only [View.readAt_eq_ld, harg2.read_unread, harg3.read_unread,
    View.ld_unit_zero (S := S1x4096x3) hz3, View.ld_unit_zero (S := S1x3x1024) hz3, View.ld_unit_zero (S := S1x4096) hz2]

end Cert.KernelIdeal.Found

end
-- ==== Proof.LibMinFold.lean ====
/-
  General lemmas about +∞ and minima over the extended reals, for kernels that take a minimum from +∞ or whose
  precondition says every input entry is finite.

  * `ofBits_inf`: the f32 word of +∞ denotes the top of the extended reals.
  * `real_of_abs_lt`: an extended real whose absolute value max(x, -x) compares strictly below that word is a real
    number — the element fact a "|x| < +∞ everywhere" precondition gives.
  * `le_fold_min_univ`: the lower bounds of a fold of `min` over a whole `Fin n` are the lower bounds of the start and
    of every value — the universal property by which two differently grouped minima are shown equal
    (`eq_of_forall_le_iff`), with no finiteness.
  * `minReduce_single`: a vector minimum-reduction over ONE axis started from +∞, read at a result index, is the fold
    of `min` from that word over the axis's coordinates (`h.lift j k`: the result index with the coordinate inserted).
    Its accumulator hypothesis is typed as programs print it (the word equal to itself), so it applies by
    `refine (minReduce_single src h _ _ j).trans ?_` to a payload unfolded in a goal.
-/
import Idealize.ShloMosaic.PureOps.Ideal
import Idealize.ShloMosaic.PureOps.Ideal.Laws
import Idealize.ShloMosaic.PureOps.Reduce

noncomputable section

namespace Cert.Lib.MinFold

open Idealize.ShloMosaic

/-- The f32 word of +∞ is the top of the extended reals. -/
theorem ofBits_inf : Ideal.ofBits .f32 0x7F800000#32 = (⊤ : EReal) := by
  simp [Ideal.ofBits, Ideal.ieee]

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    unfold Ideal.cmp at h
    by_contra hn
    simp [hn] at h
  induction x using EReal.rec with
  | bot => exact absurd hlt (by simp)
  | coe r => exact ⟨r, rfl⟩
  | top => exact absurd hlt (by simp)

/-- A lower bound of a fold of `min` over a whole finite type bounds the start and every value. -/
theorem le_fold_min_univ {n : Nat} (f : Fin n → EReal) (w c : EReal) :
    c ≤ (Finset.univ : Finset (Fin n)).fold min w f ↔ c ≤ w ∧ ∀ j, c ≤ f j := by
  rw [Finset.le_fold_min]
  exact ⟨fun h => ⟨h.1, fun j => h.2 j (Finset.mem_univ j)⟩, fun h => ⟨h.1, fun j _ => h.2 j⟩⟩

/-- A minimum over ONE axis started from +∞, read at a result index: the fold of `min` from +∞ over that axis's
    coordinates.  (The accumulator's proof is typed as programs print it: the word equal to itself.) -/
theorem minReduce_single {s t : Shape} {a : Fin s.rank} (src : FVec Ideal s .f32) (h : s.Reduces [a] t)
    (hφ : FKind.Formats .f32) (hacc : (0x7F800000#32 : BitVec 32) = 0x7F800000#32) (j : t.Idx) :
    multiReduction .minimumf [a] t src 0x7F800000#32 h hφ hacc j
      = (Finset.univ : Finset (Fin (s.size a))).fold min (Ideal.ofBits .f32 0x7F800000#32) (src ∘ h.lift j) :=
  (multiReduction_minimumf_eq_fold src _ h hφ hacc j).trans (h.fold_filter_drop_single _ _ src j)

end Cert.Lib.MinFold

end
-- ==== Proof.ChamferSpec.lean ====
/-
  The Chamfer distance of two clouds of 4096 points in three dimensions, sixteen batches, as functions of the two
  argument arrays over the extended reals.

  For a batch `b`, a point `i` of the first cloud and a point `j` of the second, `sqd x y b i j` is the squared
  distance ((0 + d₀²) + d₁²) + d₂² of the coordinate differences d_k = x(b,i,k) - y(b,j,k), added in that order.
  `rowMin` is its minimum over `j`, `colMin` its minimum over `i`, both started from +∞ (written as the word the
  programs carry, never evaluated).

  Two laws live here.  (1) A minimum taken tile by tile — 1024 values of `j` at a time, each tile's minimum folded
  into a running minimum that starts at +∞ — is the minimum over all 4096: stated through the universal property
  `c ≤ v ↔ c ≤ +∞ ∧ ∀ j below the tiles seen so far, c ≤ f j`, which needs no finiteness.  (2) When every
  coordinate is a real number, the expansion (‖a‖² + ‖b‖²) - 2·(a·b) is the sum of squared differences: a ring
  identity of ℝ, false at the infinities (∞ - ∞), so it asks for finiteness.
-/
import proofs.«124294_j50646254354947_2_alg».proof.Proof.LibMinFold
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx Cert.Lib.MinFold

/-- A cloud array: sixteen batches of 4096 points of three coordinates. -/
abbrev Pts : Type := (⟨3, ![16, 4096, 3]⟩ : Shape).Idx → EReal

/-- The zero the sums start from, as the word both programs carry. -/
abbrev Z : EReal := Ideal.ofBits .f32 0x00000000#32
/-- The +∞ the minima start from, as the word both programs carry. -/
abbrev W : EReal := Ideal.ofBits .f32 0x7F800000#32

/-- The squared distance between point `i` of `x` and point `j` of `y` in batch `b`, the three squares added to
    zero first to last. -/
def sqd (x y : Pts) (b : Fin 16) (i j : Fin 4096) : EReal :=
  ((Z + (x (ix3 b i 0) - y (ix3 b j 0)) * (x (ix3 b i 0) - y (ix3 b j 0)))
      + (x (ix3 b i 1) - y (ix3 b j 1)) * (x (ix3 b i 1) - y (ix3 b j 1)))
    + (x (ix3 b i 2) - y (ix3 b j 2)) * (x (ix3 b i 2) - y (ix3 b j 2))

/-- For each point of the first cloud, the squared distance to the nearest point of the second. -/
def rowMin (x y : Pts) (b : Fin 16) (i : Fin 4096) : EReal :=
  (Finset.univ : Finset (Fin 4096)).fold min W (fun j => sqd x y b i j)

/-- For each point of the second cloud, the squared distance to the nearest point of the first. -/
def colMin (x y : Pts) (b : Fin 16) (j : Fin 4096) : EReal :=
  (Finset.univ : Finset (Fin 4096)).fold min W (fun i => sqd x y b i j)

/-! ## A minimum taken tile by tile -/

/-- The minimum of tile `k`: the 1024 values at `1024·k … 1024·k + 1023`, from +∞. -/
def tileMin (f : Fin 4096 → EReal) (k : Nat) (hk : k < 4) : EReal :=
  (Finset.univ : Finset (Fin 1024)).fold min W (fun jj => f ⟨1024 * k + jj.val, by have := jj.isLt; omega⟩)

/-- `v` is the minimum, from +∞, of the values in the first `n` tiles: stated by its lower bounds. -/
def Upto (f : Fin 4096 → EReal) (n : Nat) (v : EReal) : Prop :=
  ∀ c : EReal, c ≤ v ↔ c ≤ W ∧ ∀ j : Fin 4096, j.val < 1024 * n → c ≤ f j

/-- Before any tile the running minimum is +∞. -/
theorem upto_zero (f : Fin 4096 → EReal) : Upto f 0 W := fun c =>
  ⟨fun h => ⟨h, fun j hj => absurd hj (by omega)⟩, fun h => h.1⟩

/-- Folding tile `n`'s minimum into the minimum of the first `n` tiles gives the minimum of the first `n + 1`. -/
theorem upto_step (f : Fin 4096 → EReal) (n : Nat) (hn : n < 4) (v : EReal) (h : Upto f n v) :
    Upto f (n + 1) (min v (tileMin f n hn)) := by
  intro c
  rw [le_min_iff, h c, tileMin, le_fold_min_univ]
  constructor
  · rintro ⟨⟨hW, hlo⟩, _, hhi⟩
    refine ⟨hW, fun j hj => ?_⟩
    by_cases hlt : j.val < 1024 * n
    · exact hlo j hlt
    · have hjj : j.val - 1024 * n < 1024 := by omega
      have e : (⟨1024 * n + (⟨j.val - 1024 * n, hjj⟩ : Fin 1024).val, by have := j.isLt; omega⟩ : Fin 4096) = j :=
        Fin.ext (by show 1024 * n + (j.val - 1024 * n) = j.val; omega)
      have := hhi ⟨j.val - 1024 * n, hjj⟩
      rwa [e] at this
  · rintro ⟨hW, hall⟩
    exact ⟨⟨hW, fun j hj => hall j (by omega)⟩, hW, fun jj => hall _ (by show 1024 * n + jj.val < 1024 * (n + 1); have := jj.isLt; omega)⟩

/-- After all four tiles the running minimum is the minimum over all 4096 values. -/
theorem upto_four (f : Fin 4096 → EReal) (v : EReal) (h : Upto f 4 v) :
    v = (Finset.univ : Finset (Fin 4096)).fold min W f :=
  eq_of_forall_le_iff fun c => by
    rw [h c, le_fold_min_univ]
    exact ⟨fun hh => ⟨hh.1, fun j => hh.2 j (by have := j.isLt; omega)⟩, fun hh => ⟨hh.1, fun j _ => hh.2 j⟩⟩

/-! ## The expansion of a squared distance, over the reals -/

/-- The word `2.0` is the real number 2. -/
theorem ofBits_two : Ideal.ofBits .f32 0x40000000#32 = ((2 : ℝ) : EReal) := by
  simp [Ideal.ofBits, Ideal.ieee, -EReal.coe_mul]; norm_num

/-- (‖a‖² + ‖b‖²) - 2·(a·b), with each sum started from zero, as the reference spells it. -/
def expanded (x y : Pts) (b : Fin 16) (i j : Fin 4096) : EReal :=
  ((Z + ∑ k : Fin 3, x (ix3 b i k) * x (ix3 b i k)) + (Z + ∑ k : Fin 3, y (ix3 b j k) * y (ix3 b j k)))
    - Ideal.ofBits .f32 0x40000000#32 * ∑ k : Fin 3, x (ix3 b i k) * y (ix3 b j k)

/-- Every entry of the array is a real number. -/
def Finite (x : Pts) : Prop := ∀ p, ∃ r : ℝ, x p = (r : EReal)

/-- On real coordinates the expansion is the sum of the squared differences. -/
theorem expanded_eq_sqd (x y : Pts) (hx : Finite x) (hy : Finite y) (b : Fin 16) (i j : Fin 4096) :
    expanded x y b i j = sqd x y b i j := by
  obtain ⟨a0, ha0⟩ := hx (ix3 b i 0)
  obtain ⟨a1, ha1⟩ := hx (ix3 b i 1)
  obtain ⟨a2, ha2⟩ := hx (ix3 b i 2)
  obtain ⟨b0, hb0⟩ := hy (ix3 b j 0)
  obtain ⟨b1, hb1⟩ := hy (ix3 b j 1)
  obtain ⟨b2, hb2⟩ := hy (ix3 b j 2)
  unfold expanded sqd
  rw [Fin.sum_univ_three, Fin.sum_univ_three, Fin.sum_univ_three, ofBits_two]
  simp only [Z, Ideal.ofBits_zero_f32, ha0, ha1, ha2, hb0, hb1, hb2]
  simp only [← EReal.coe_mul, ← EReal.coe_add, ← EReal.coe_sub, ← EReal.coe_zero]
  exact congrArg _ (by ring)

end Cert.Chamfer

end
-- ==== Proof.KernelPayload.lean ====
/-
  What one grid step of the kernel computes, read index by index over the extended reals.

  A step holds one batch's first cloud `x0` (4096 points × 3 coordinates) and a tile `x1` of 1024 points of the
  second cloud, coordinate-major (3 × 1024).  Its distance block at (i, jj) is ((0 + d₀²) + d₁²) + d₂² with
  d_k = x0(i,k) - x1(k,jj): a column of `x0` broadcast along the tile minus a row of `x1` broadcast down the points.
  From the block the step takes, for each point `i`, the minimum over the tile, folded into the value the running
  minimum held before (`rowStep`); for each tile position `jj` the minimum over all 4096 points (`colStep`); and,
  at a batch's last tile, the running row of 4096 minima re-laid as 32 rows of 128 (`relaid`).
-/
import proofs.«124294_j50646254354947_2_alg».proof.Proof.Gen.KernelIdeal.Skeleton
import proofs.«124294_j50646254354947_2_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.Step

open Idealize.ShloMosaic Idealize.ShloMosaic.ValueIdx
open Cert.KernelIdeal Cert.KernelIdeal.Gen Cert.Chamfer Cert.Lib.MinFold

/-- Coordinate `d` of every point of `x0`, broadcast along the tile, read at (i, jj): `x0 (i, d)`. -/
theorem colBroadcast (x0 : Vec Ideal S1x4096x3 .f32) (d : Fin 3) (off : Fin 3 → Nat) (hoff : off = ![0, 0, d.val])
    (hs : S1x4096x3.Slices off S1x4096x1) (hb : S1x4096x1.Broadcasts S1x4096x1024) (i : Fin 4096) (jj : Fin 1024) :
    broadcastTo S1x4096x1024 (extractStridedSlice S1x4096x1 off x0 hs) hb (ix3 0 i jj) = x0 (ix3 0 i d) := by
  subst hoff
  refine (broadcastTo_apply _ hb (ix3 0 i jj) (ix3 0 i 0) fun a => ?_).trans
    (extractStridedSlice_apply _ x0 hs (ix3 0 i 0) (ix3 0 i d) fun a => ?_)
  · match a with
    | ⟨0, _⟩ => show (0 : Nat) = if (1 : Nat) = 1 then 0 else _; rw [if_pos rfl]
    | ⟨1, _⟩ => show i.val = if (4096 : Nat) = 1 then 0 else i.val; rw [if_neg (by decide)]
    | ⟨2, _⟩ => show (0 : Nat) = if (1 : Nat) = 1 then 0 else _; rw [if_pos rfl]
  · match a with
    | ⟨0, _⟩ => show (0 : Nat) = 0 + 0; rfl
    | ⟨1, _⟩ => show i.val = 0 + i.val; omega
    | ⟨2, _⟩ => show d.val = d.val + 0; omega

/-- Coordinate `d` of every tile point of `x1`, broadcast down the points, read at (i, jj): `x1 (d, jj)`. -/
theorem rowBroadcast (x1 : Vec Ideal S1x3x1024 .f32) (d : Fin 3) (off : Fin 3 → Nat) (hoff : off = ![0, d.val, 0])
    (hs : S1x3x1024.Slices off S1x1x1024) (hb : S1x1x1024.Broadcasts S1x4096x1024) (i : Fin 4096) (jj : Fin 1024) :
    broadcastTo S1x4096x1024 (extractStridedSlice S1x1x1024 off x1 hs) hb (ix3 0 i jj) = x1 (ix3 0 d jj) := by
  subst hoff
  refine (broadcastTo_apply _ hb (ix3 0 i jj) (ix3 0 0 jj) fun a => ?_).trans
    (extractStridedSlice_apply _ x1 hs (ix3 0 0 jj) (ix3 0 d jj) fun a => ?_)
  · match a with
    | ⟨0, _⟩ => show (0 : Nat) = if (1 : Nat) = 1 then 0 else _; rw [if_pos rfl]
    | ⟨1, _⟩ => show (0 : Nat) = if (1 : Nat) = 1 then 0 else _; rw [if_pos rfl]
    | ⟨2, _⟩ => show jj.val = if (1024 : Nat) = 1 then 0 else jj.val; rw [if_neg (by decide)]
  · match a with
    | ⟨0, _⟩ => show (0 : Nat) = 0 + 0; rfl
    | ⟨1, _⟩ => show d.val = d.val + 0; omega
    | ⟨2, _⟩ => show jj.val = 0 + jj.val; omega

/-- The distance block of one step at (i, jj). -/
def blockSqd (x0 : Vec Ideal S1x4096x3 .f32) (x1 : Vec Ideal S1x3x1024 .f32) (i : Fin 4096) (jj : Fin 1024) : EReal :=
  ((Z + (x0 (ix3 0 i 0) - x1 (ix3 0 0 jj)) * (x0 (ix3 0 i 0) - x1 (ix3 0 0 jj)))
      + (x0 (ix3 0 i 1) - x1 (ix3 0 1 jj)) * (x0 (ix3 0 i 1) - x1 (ix3 0 1 jj)))
    + (x0 (ix3 0 i 2) - x1 (ix3 0 2 jj)) * (x0 (ix3 0 i 2) - x1 (ix3 0 2 jj))

/-- The body's distance block is `blockSqd`: each broadcast read at its source, the arithmetic pointwise. -/
theorem dist_apply (x0 : Vec Ideal S1x4096x3 .f32) (x1 : Vec Ideal S1x3x1024 .f32) (i : Fin 4096) (jj : Fin 1024) :
    k0_pay2 (F := Ideal) x0 x1 (ix3 0 i jj) = blockSqd x0 x1 i jj := by
  unfold k0_pay2 blockSqd
  simp only [shapeCast_self]
  show ((Z + (_ - _) * (_ - _)) + (_ - _) * (_ - _)) + (_ - _) * (_ - _) = _
  rw [colBroadcast x0 0 ![0, 0, 0] rfl, colBroadcast x0 1 ![0, 0, 1] rfl, colBroadcast x0 2 ![0, 0, 2] rfl,
    rowBroadcast x1 0 ![0, 0, 0] rfl, rowBroadcast x1 1 ![0, 1, 0] rfl, rowBroadcast x1 2 ![0, 2, 0] rfl]

/-- The value a batch's first step resets the running minimum to: +∞ in every position. -/
theorem reset_apply (i : Fin 4096) : k0_pay3 (F := Ideal) (ix2 0 i) = W := by
  unfold k0_pay3
  simp only [shapeCast_self]
  rfl

/-- One step of the running row minimum at point `i`: what it held, against the minimum of the tile's 1024
    distances from `i` (a minimum over the tile axis, read as a fold over that axis's coordinates). -/
theorem rowStep_apply (x0 : Vec Ideal S1x4096x3 .f32) (x1 : Vec Ideal S1x3x1024 .f32) (xs : Vec Ideal S1x4096 .f32)
    (i : Fin 4096) :
    k0_pay4 (F := Ideal) x0 x1 xs (ix2 0 i)
      = min (xs (ix2 0 i)) ((Finset.univ : Finset (Fin 1024)).fold min W (fun jj => blockSqd x0 x1 i jj)) := by
  unfold k0_pay4
  simp only [shapeCast_self]
  refine (minimumf_apply _ _ _).trans (congrArg (min (xs (ix2 0 i))) ?_)
  refine (minReduce_single (k0_pay2 (F := Ideal) x0 x1) Facts₀.reduces_S1x4096x1024_S1x4096 _ _ (ix2 0 i)).trans ?_
  show (Finset.univ : Finset (Fin 1024)).fold min W
    (fun jj => k0_pay2 (F := Ideal) x0 x1 (Facts₀.reduces_S1x4096x1024_S1x4096.lift (ix2 0 i) jj)) = _
  refine Finset.fold_congr fun jj _ => ?_
  rw [show Facts₀.reduces_S1x4096x1024_S1x4096.lift (ix2 0 i) jj = ix3 0 i jj from
    funext fun a => Fin.ext (by match a with | ⟨0, _⟩ => rfl | ⟨1, _⟩ => rfl | ⟨2, _⟩ => rfl)]
  exact dist_apply x0 x1 i jj

/-- The column minimum of one step at tile position `jj`: the minimum, from +∞, of the 4096 distances to it (a
    minimum over the point axis, stored with a unit axis added in front). -/
theorem colStep_apply (x0 : Vec Ideal S1x4096x3 .f32) (x1 : Vec Ideal S1x3x1024 .f32) (jj : Fin 1024) :
    k0_pay5 (F := Ideal) x0 x1 (ix3 0 0 jj)
      = (Finset.univ : Finset (Fin 4096)).fold min W (fun i => blockSqd x0 x1 i jj) := by
  unfold k0_pay5
  refine (shapeCast_apply _ Facts₀.shapeCasts_S1x1024_S1x1x1024 (ix3 0 0 jj) (ix2 0 jj) ?_).trans ?_
  · rw [Shape.rowMajor_val_two, Shape.rowMajor_val_three]
    show 0 * 1024 + jj.val = (0 * 1 + 0) * 1024 + jj.val
    omega
  refine (minReduce_single (k0_pay2 (F := Ideal) x0 x1) Facts₀.reduces_S1x4096x1024_S1x1024 _ _ (ix2 0 jj)).trans ?_
  show (Finset.univ : Finset (Fin 4096)).fold min W
    (fun i => k0_pay2 (F := Ideal) x0 x1 (Facts₀.reduces_S1x4096x1024_S1x1024.lift (ix2 0 jj) i)) = _
  refine Finset.fold_congr fun i _ => ?_
  rw [show Facts₀.reduces_S1x4096x1024_S1x1024.lift (ix2 0 jj) i = ix3 0 i jj from
    funext fun a => Fin.ext (by match a with | ⟨0, _⟩ => rfl | ⟨1, _⟩ => rfl | ⟨2, _⟩ => rfl)]
  exact dist_apply x0 x1 i jj

/-- The running row of 4096 minima re-laid as 32 rows of 128: position (r, l) holds entry `128·r + l` (the same
    row-major position). -/
theorem relaid_apply (v : Vec Ideal S1x4096 .f32) (r : Fin 32) (l : Fin 128) :
    k0_pay1 (F := Ideal) v (ix3 0 r l)
      = v (ix2 0 (⟨128 * r.val + l.val, by have := r.isLt; have := l.isLt; omega⟩ : Fin 4096)) := by
  unfold k0_pay1
  refine shapeCast_apply _ Facts₀.shapeCasts_S1x4096_S1x32x128 (ix3 0 r l) _ ?_
  rw [Shape.rowMajor_val_two, Shape.rowMajor_val_three]
  show 0 * 4096 + (128 * r.val + l.val) = (0 * 32 + r.val) * 128 + l.val
  omega

end Cert.KernelIdeal.Step

end
-- ==== Proof.KernelBlocks.lean ====
/-
  The kernel's grid, point by point.

  The grid has 64 points: point `t` works on batch `t / 4` and on tile `t % 4` of the second cloud.  Its first
  input block is the whole first cloud of that batch, entry (i, d) the array's (t / 4, i, d); its second input block
  is tile `t % 4` of the second cloud, coordinate-major — the array was transposed on the host before the launch — so
  entry (d, jj) is the argument's (t / 4, 1024·(t % 4) + jj, d).  Hence the step's distance block at (i, jj) is the
  squared distance `sqd` between point `i` of the first cloud and point `1024·(t % 4) + jj` of the second.

  The running row minimum the kernel carries in its scratch is, after tile `k` of a batch, the minimum over the first
  `k + 1` tiles (by induction on the point: reset and stepped at a batch's first tile, stepped afterwards), so after the
  last tile it is `rowMin`; the column block of a point is `colMin` at the tile's positions.
-/
import proofs.«124294_j50646254354947_2_alg».proof.Proof.Gen.KernelIdeal.Frame
import proofs.«124294_j50646254354947_2_alg».proof.Proof.KernelFound
import proofs.«124294_j50646254354947_2_alg».proof.Proof.KernelPayload
import proofs.«124294_j50646254354947_2_alg».proof.Proof.ChamferSpec
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Points

open Cert.KernelIdeal Cert.KernelIdeal.Gen Cert.KernelIdeal.Found Cert.KernelIdeal.Step Cert.Chamfer

variable (m : (ℓ : Loc nD τ sig) → Buf (Elt Ideal) ℓ)

/-- The first cloud as launched. -/
abbrev X (c : Dev nD) : Pts := m ((c : Thread nD τ).loc main_arg0)
/-- The second cloud as launched. -/
abbrev Y (c : Dev nD) : Pts := m ((c : Thread nD τ).loc main_arg1)

theorem N64 : cfg0.N = 64 := N_0

/-- The batch point `n` works on. -/
def batch (n : Nat) (hn : n < cfg0.N) : Fin 16 := ⟨n / 4, by have := N64; omega⟩

/-- The point of the second cloud at position `jj` of point `n`'s tile. -/
def tilePt (n : Nat) (jj : Fin 1024) : Fin 4096 := ⟨1024 * (n % 4) + jj.val, by have := jj.isLt; omega⟩

/-- The printed index maps, decided once over the grid: every window's batch coordinate is `t / 4`, the tiled
    windows' tile coordinate `t % 4`, every other coordinate 0. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4 :=
  (by decide +kernel : ∀ t : Fin grid0.N, _)

/-! ## The input blocks -/

/-- The first input block at a point: the batch's first cloud. -/
theorem fstBlock_apply (c : Dev nD) (n : Nat) (hn : n < cfg0.N) (i : Fin 4096) (d : Fin 3) :
    (iblk m c 0 ⟨n, hn⟩ : Vec Ideal S1x4096x3 .f32) (ix3 0 i d) = X m c (ix3 (batch n hn) i d) := by
  have e0 : win0_0.index ⟨n, hn⟩ (0 : Fin 3) = n / 4 := (idx_facts ⟨n, hn⟩).1
  have e1 : win0_0.index ⟨n, hn⟩ (1 : Fin 3) = 0 := (idx_facts ⟨n, hn⟩).2.1
  have e2 : win0_0.index ⟨n, hn⟩ (2 : Fin 3) = 0 := (idx_facts ⟨n, hn⟩).2.2.1
  unfold iblk
  rw [View.read_apply]
  show V m c main_arg0 _ = _
  refine (congrFun (V_main_arg0 m c) _).trans (congrArg (m ((c : Thread nD τ).loc main_arg0)) ?_)
  funext a
  apply Fin.ext
  match a with
  | ⟨0, _⟩ => show win0_0.index ⟨n, hn⟩ (0 : Fin 3) * 1 + 1 * 0 = n / 4; rw [e0]; omega
  | ⟨1, _⟩ => show win0_0.index ⟨n, hn⟩ (1 : Fin 3) * 4096 + 1 * i.val = i.val; rw [e1]; omega
  | ⟨2, _⟩ => show win0_0.index ⟨n, hn⟩ (2 : Fin 3) * 3 + 1 * d.val = d.val; rw [e2]; omega

/-- The array the second window reads is the second cloud with its last two axes exchanged (the one host
    operation before the launch). -/
theorem V_transposed (c : Dev nD) :
    (V m c main_v0 : S16x3x4096.Idx → EReal)
      = transpose S16x3x4096 [0, 2, 1] (m ((c : Thread nD τ).loc main_arg1)) Facts₀.transposes_S16x4096x3_S16x3x4096_0_2_1 := by
  show StableHlo.after hostOps0 (fun b => m (c, b)) (Proc.devRef .tc main_v0) = _
  after_results

/-- The second input block at a point: one tile of the batch's second cloud, coordinate-major. -/
theorem sndBlock_apply (c : Dev nD) (n : Nat) (hn : n < cfg0.N) (d : Fin 3) (jj : Fin 1024) :
    (iblk m c 1 ⟨n, hn⟩ : Vec Ideal S1x3x1024 .f32) (ix3 0 d jj) = Y m c (ix3 (batch n hn) (tilePt n jj) d) := by
  have e0 : win0_1.index ⟨n, hn⟩ (0 : Fin 3) = n / 4 := (idx_facts ⟨n, hn⟩).2.2.2.1
  have e1 : win0_1.index ⟨n, hn⟩ (1 : Fin 3) = 0 := (idx_facts ⟨n, hn⟩).2.2.2.2.1
  have e2 : win0_1.index ⟨n, hn⟩ (2 : Fin 3) = n % 4 := (idx_facts ⟨n, hn⟩).2.2.2.2.2.1
  unfold iblk
  rw [View.read_apply]
  show V m c main_v0 _ = _
  refine (congrFun (V_transposed m c) _).trans ?_
  refine (congrArg _ ?_).trans (transpose_ix3_021_apply (m ((c : Thread nD τ).loc main_arg1))
    Facts₀.transposes_S16x4096x3_S16x3x4096_0_2_1 (batch n hn) d (tilePt n jj))
  funext a
  apply Fin.ext
  match a with
  | ⟨0, _⟩ => show win0_1.index ⟨n, hn⟩ (0 : Fin 3) * 1 + 1 * 0 = n / 4; rw [e0]; omega
  | ⟨1, _⟩ => show win0_1.index ⟨n, hn⟩ (1 : Fin 3) * 3 + 1 * d.val = d.val; rw [e1]; omega
  | ⟨2, _⟩ => show win0_1.index ⟨n, hn⟩ (2 : Fin 3) * 1024 + 1 * jj.val = 1024 * (n % 4) + jj.val; rw [e2]; omega

/-- A step's distance block over blocks that read the clouds at a batch and a point of the second cloud is `sqd`. -/
theorem blockSqd_of (x0 : Vec Ideal S1x4096x3 .f32) (x1 : Vec Ideal S1x3x1024 .f32) (x y : Pts) (b : Fin 16)
    (i : Fin 4096) (jj : Fin 1024) (j : Fin 4096) (h0 : ∀ d : Fin 3, x0 (ix3 0 i d) = x (ix3 b i d))
    (h1 : ∀ d : Fin 3, x1 (ix3 0 d jj) = y (ix3 b j d)) : blockSqd x0 x1 i jj = sqd x y b i j := by
  unfold blockSqd sqd
  rw [h0 0, h0 1, h0 2, h1 0, h1 1, h1 2]

/-- The distance block of point `n`. -/
theorem blockSqd_at (c : Dev nD) (n : Nat) (hn : n < cfg0.N) (i : Fin 4096) (jj : Fin 1024) :
    blockSqd (iblk m c 0 ⟨n, hn⟩) (iblk m c 1 ⟨n, hn⟩) i jj = sqd (X m c) (Y m c) (batch n hn) i (tilePt n jj) :=
  blockSqd_of (iblk m c 0 ⟨n, hn⟩) (iblk m c 1 ⟨n, hn⟩) (X m c) (Y m c) (batch n hn) i jj (tilePt n jj)
    (fun d => fstBlock_apply m c n hn i d) (fun d => sndBlock_apply m c n hn d jj)

/-! ## What each point leaves, by its payloads -/

/-- At a batch's first tile the scratch ends at the row step from the reset value. -/
theorem scratch_first (c : Dev nD) (t : Fin cfg0.N) (h0 : t.val % 4 = 0) :
    (outsAt0 m c t.val t.isLt).2.2 = k0_pay4 (F := Ideal) (iblk m c 0 t) (iblk m c 1 t) (k0_pay3 (F := Ideal)) := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (fun h => h1 ((hcond0_1 t).mp h)) (iblk m c 0 t) (iblk m c 1 t)

/-- At a later tile the scratch ends at the row step from what the point before left. -/
theorem scratch_later (c : Dev nD) (t : Fin cfg0.N) (h0 : ¬t.val % 4 = 0) :
    (outsAt0 m c t.val t.isLt).2.2
      = k0_pay4 (F := Ideal) (iblk m c 0 t) (iblk m c 1 t)
          (outsAt0 m c (t.val - 1) (Nat.lt_of_le_of_lt (Nat.sub_le _ _) t.isLt)).2.2 := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At every point the column output's buffer ends at the column step. -/
theorem col_at (c : Dev nD) (t : Fin cfg0.N) :
    (outsAt0 m c t.val t.isLt).2.1 = k0_pay5 (F := Ideal) (iblk m c 0 t) (iblk m c 1 t) := by
  by_cases h0 : t.val % 4 = 0
  · have h1 : ¬t.val % 4 = 3 := by omega
    rw [outsAt0_A m c t h0 h1]
    dsimp only
    exact col_A (F := Ideal) c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (fun h => h1 ((hcond0_1 t).mp h)) (iblk m c 0 t) (iblk m c 1 t)
  · by_cases h1 : t.val % 4 = 3
    · rw [outsAt0_C m c t h0 h1]
      dsimp only
      exact col_C (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact col_B (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At a batch's last tile the row output's buffer ends at the scratch's own final contents, re-laid. -/
theorem rowOut_at (c : Dev nD) (t : Fin cfg0.N) (h1 : t.val % 4 = 3) :
    (outsAt0 m c t.val t.isLt).1 = k0_pay1 (F := Ideal) (outsAt0 m c t.val t.isLt).2.2 := by
  have h0 : ¬t.val % 4 = 0 := by omega
  rw [scratch_later m c t h0, outsAt0_C m c t h0 h1]
  dsimp only
  exact row_C (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (outsAt0 m c (t.val - 1) (Nat.lt_of_le_of_lt (Nat.sub_le _ _) t.isLt)).2.2

/-! ## The running row minimum, by induction on the point -/

/-- A batch's first tile: the running minimum is +∞ folded with tile 0's minimum. -/
theorem upto_first (f : Fin 4096 → EReal) (k : Nat) (hk4 : k < 4) (hk : k = 0) (v : EReal)
    (hv : v = min W (tileMin f k hk4)) : Upto f (k + 1) v := by
  subst hk; subst hv; exact upto_step f 0 hk4 W (upto_zero f)

/-- A later tile: the running minimum of the tiles before, folded with this tile's minimum. -/
theorem upto_next (f : Fin 4096 → EReal) (k k' : Nat) (hk4 : k' < 4) (hk : k' = k + 1) (v v' : EReal)
    (h : Upto f (k + 1) v) (hv : v' = min v (tileMin f k' hk4)) : Upto f (k' + 1) v' := by
  subst hk; subst hv; exact upto_step f (k + 1) hk4 v h

/-- One row step at point `n`, read at point `i` of the first cloud: what the running minimum held, against the
    minimum over tile `n % 4` of the squared distances from `i`. -/
theorem step_value (c : Dev nD) (n : Nat) (hn : n < cfg0.N) (xs : Vec Ideal S1x4096 .f32) (i : Fin 4096) :
    k0_pay4 (F := Ideal) (iblk m c 0 ⟨n, hn⟩) (iblk m c 1 ⟨n, hn⟩) xs (ix2 0 i)
      = min (xs (ix2 0 i)) (tileMin (sqd (X m c) (Y m c) (batch n hn) i) (n % 4) (Nat.mod_lt _ (by decide))) := by
  refine (rowStep_apply (iblk m c 0 ⟨n, hn⟩) (iblk m c 1 ⟨n, hn⟩) xs i).trans (congrArg (min _) ?_)
  unfold tileMin
  refine Finset.fold_congr fun jj _ => ?_
  exact blockSqd_at m c n hn i jj

/-- After point `n` the scratch holds, at `i`, the minimum over tiles `0 … n % 4` of batch `n / 4`. -/
theorem row_upto (c : Dev nD) : ∀ (n : Nat) (hn : n < cfg0.N) (i : Fin 4096),
    Upto (sqd (X m c) (Y m c) (batch n hn) i) (n % 4 + 1) ((outsAt0 m c n hn).2.2 (ix2 0 i))
  | 0, hn, i => by
    refine upto_first _ _ (Nat.mod_lt _ (by decide)) rfl _ ?_
    have e := scratch_first m c ⟨0, hn⟩ rfl
    exact (congrFun e (ix2 0 i)).trans ((step_value m c 0 hn _ i).trans (by rw [reset_apply]))
  | n + 1, hn, i => by
    by_cases h0 : (n + 1) % 4 = 0
    · refine upto_first _ _ (Nat.mod_lt _ (by decide)) h0 _ ?_
      have e := scratch_first m c ⟨n + 1, hn⟩ h0
      exact (congrFun e (ix2 0 i)).trans ((step_value m c (n + 1) hn _ i).trans (by rw [reset_apply]))
    · have ih := row_upto c n (Nat.lt_of_succ_lt hn) i
      have hb : batch (n + 1) hn = batch n (Nat.lt_of_succ_lt hn) := Fin.ext (by show (n + 1) / 4 = n / 4; omega)
      rw [hb]
      refine upto_next _ (n % 4) ((n + 1) % 4) (Nat.mod_lt _ (by decide)) (by omega) _ _ ih ?_
      have e := scratch_later m c ⟨n + 1, hn⟩ h0
      have e' := step_value m c (n + 1) hn (outsAt0 m c n (Nat.lt_of_succ_lt hn)).2.2 i
      rw [hb] at e'
      exact (congrFun e (ix2 0 i)).trans e'

/-- After a batch's last tile the scratch holds `rowMin`. -/
theorem row_final (c : Dev nD) (n : Nat) (hn : n < cfg0.N) (h3 : n % 4 = 3) (i : Fin 4096) :
    (outsAt0 m c n hn).2.2 (ix2 0 i) = rowMin (X m c) (Y m c) (batch n hn) i := by
  have h := row_upto m c n hn i
  rw [h3] at h
  exact upto_four _ _ h

/-- The column block of point `n`: `colMin` at the tile's positions. -/
theorem col_value (c : Dev nD) (n : Nat) (hn : n < cfg0.N) (jj : Fin 1024) :
    (outsAt0 m c n hn).2.1 (ix3 0 0 jj) = colMin (X m c) (Y m c) (batch n hn) (tilePt n jj) := by
  refine (congrFun (col_at m c ⟨n, hn⟩) (ix3 0 0 jj)).trans ?_
  refine (colStep_apply (iblk m c 0 ⟨n, hn⟩) (iblk m c 1 ⟨n, hn⟩) jj).trans ?_
  unfold colMin
  exact Finset.fold_congr fun i _ => blockSqd_at m c n hn i jj

/-- The row block a batch's last tile writes: `rowMin`, 32 rows of 128. -/
theorem row_value (c : Dev nD) (n : Nat) (hn : n < cfg0.N) (h3 : n % 4 = 3) (r : Fin 32) (l : Fin 128) :
    (outsAt0 m c n hn).1 (ix3 0 r l)
      = rowMin (X m c) (Y m c) (batch n hn) ⟨128 * r.val + l.val, by have := r.isLt; have := l.isLt; omega⟩ := by
  refine (congrFun (rowOut_at m c ⟨n, hn⟩ h3) (ix3 0 r l)).trans ?_
  exact (relaid_apply _ r l).trans (row_final m c n hn h3 _)

end Cert.KernelIdeal.Points

end
-- ==== Proof.ChamferMean.lean ====
/-
  The last stage both programs share: from the [16, 4096] array of row minima and the [16, 4096] array of column
  minima, per batch, the mean of the one plus the mean of the other — each mean a sum from zero over the 4096 entries
  divided by 4096.  Both programs spell it with the same operations in the same order, so it is stated once, as a
  function of the two arrays, and never opened.
-/
import proofs.«124294_j50646254354947_2_alg».proof.Proof.ChamferSpec
import Idealize.ShloMosaic.PureOps

noncomputable section

namespace Cert.Chamfer

open Idealize.ShloMosaic

abbrev SR : Shape := ⟨2, ![16, 4096]⟩
abbrev SB : Shape := ⟨1, ![16]⟩
abbrev S0 : Shape := ⟨0, ![]⟩

/-- Per batch: mean of the row minima plus mean of the column minima. -/
def meanSum (h1 : SR.ReducesTo [1] SB) (h2 : 0 < S0.numel) (h3 : S0.BroadcastsInDim SB (![] : Fin 0 → Fin SB.rank))
    (r cm : FVec Ideal SR .f32) : FVec Ideal SB .f32 :=
  addf
    (Host.divf (Host.reduceAdd r (constant (F := Ideal) S0 .f32 0x00000000#32) h1 h2)
      (broadcastInDim SB ![] h3 (constant (F := Ideal) S0 .f32 0x45800000#32)))
    (Host.divf (Host.reduceAdd cm (constant (F := Ideal) S0 .f32 0x00000000#32) h1 h2)
      (broadcastInDim SB ![] h3 (constant (F := Ideal) S0 .f32 0x45800000#32)))

/-- The array of row minima. -/
def rowMins (x y : Pts) : FVec Ideal SR .f32 := fun p => rowMin x y ⟨(p 0).val, (p 0).isLt⟩ ⟨(p 1).val, (p 1).isLt⟩

/-- The array of column minima. -/
def colMins (x y : Pts) : FVec Ideal SR .f32 := fun p => colMin x y ⟨(p 0).val, (p 0).isLt⟩ ⟨(p 1).val, (p 1).isLt⟩

end Cert.Chamfer

end
-- ==== Proof.KernelArrays.lean ====
/-
  The kernel's two output arrays after the run, and its result.

  The column-minimum array [16, 1, 4096] is written at every grid point: point `t` writes block (t / 4, 0, t % 4), the
  1024 column minima of its tile, so the array ends holding `colMin` at (b, j) in position (b, 0, j): position
  (b, 0, j) lies in the block of point 4·b + j / 1024.  The row-minimum array [16, 32, 128] is written only at a
  batch's last tile, point 4·b + 3, whose block (b, 0, 0) is the whole batch's 4096 row minima in 32 rows of 128: it
  ends holding `rowMin` at (b, 128·r + l) in position (b, r, l).  After the launch the host flattens both back to
  [16, 4096] — the same row-major positions — and takes the mean of each plus the other (`meanSum`).
-/
import proofs.«124294_j50646254354947_2_alg».proof.Proof.KernelBlocks
import proofs.«124294_j50646254354947_2_alg».proof.Proof.ChamferMean

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Arrays

open Cert.KernelIdeal Cert.KernelIdeal.Gen Cert.KernelIdeal.Points Cert.Chamfer

variable (m : (ℓ : Loc nD τ sig) → Buf (Elt Ideal) ℓ) (ρ : Dev nD → PrngReg)

/-- What the row-minimum array ends holding: `rowMin` of batch `b` at point `128·r + l`, in position (b, r, l). -/
def rowArr (c : Dev nD) : S16x32x128.Idx → EReal := fun p =>
  rowMin (X m c) (Y m c) ⟨(p 0).val, (p 0).isLt⟩
    ⟨128 * (p 1).val + (p 2).val, by
      have h1 : (p 1).val < 32 := (p 1).isLt
      have h2 : (p 2).val < 128 := (p 2).isLt
      omega⟩

/-- What the column-minimum array ends holding: `colMin` of batch `b` at point `j`, in position (b, 0, j). -/
def colArr (c : Dev nD) : S16x1x4096.Idx → EReal := fun p =>
  colMin (X m c) (Y m c) ⟨(p 0).val, (p 0).isLt⟩ ⟨(p 2).val, (p 2).isLt⟩

/-! ## The column-minimum array -/

/-- What point `t` writes back into the column-minimum array is block `t` of `colArr`. -/
theorem flushedCol_eq (c : Dev nD) (t : Fin cfg0.N) :
    (dats m 0 c).flushed 3 t = ((cfg0.win 3).blk t).view.read (Elt Ideal) (colArr m c) := by
  obtain ⟨-, -, -, -, -, -, -, -, -, e0, e1, e2⟩ := idx_facts t
  show (cfg0.win 3).cut (grid0.coords t) ((dats m 0 c).after 3 t) = _
  rw [after0_3]
  funext y
  have h0 : (y 0).val < 1 := (y 0).isLt
  have h1 : (y 1).val < 1 := (y 1).isLt
  have h2 : (y 2).val < 1024 := (y 2).isLt
  have ey : y = ix3 0 0 ⟨(y 2).val, h2⟩ := funext fun a => Fin.ext (by
    match a with
    | ⟨0, _⟩ => show (y 0).val = 0; omega
    | ⟨1, _⟩ => show (y 1).val = 0; omega
    | ⟨2, _⟩ => rfl)
  rw [View.read_apply]
  show (outsAt0 m c t.val t.isLt).2.1 y = colArr m c (((cfg0.win 3).blk t).view.emb y)
  refine (congrArg (outsAt0 m c t.val t.isLt).2.1 ey).trans ((col_value m c t.val t.isLt ⟨(y 2).val, h2⟩).trans ?_)
  unfold colArr
  refine congr (congrArg (colMin (X m c) (Y m c)) (Fin.ext ?_)) (Fin.ext ?_)
  · show t.val / 4 = win0_3.index t (0 : Fin 3) * 1 + 1 * (y 0).val
    rw [e0]; omega
  · show 1024 * (t.val % 4) + (y 2).val = win0_3.index t (2 : Fin 3) * 1024 + 1 * (y 2).val
    rw [e2]; omega

/-- A position of the column-minimum array is in point `t`'s block iff each coordinate is in the block's range. -/
theorem mem_blkCol (t : Fin cfg0.N) (p : S16x1x4096.Idx) :
    p ∈ ((cfg0.win 3).blk t).view.set ↔ ∀ a : Fin 3, win0_3.index t a * S1x1x1024.size a ≤ (p a).val
      ∧ (p a).val < win0_3.index t a * S1x1x1024.size a + S1x1x1024.size a := by
  show p ∈ ((View.whole main_v1_1).slice (win0_3.rect t)).set ↔ _
  rw [View.set_slice_whole, Rect.mem_set_unit]
  exact Iff.rfl

/-- Every position of the column-minimum array is in the block of the point of its batch and tile. -/
theorem coverCol (p : S16x1x4096.Idx) :
    ∃ t : Fin cfg0.N, (cfg0.win 3).flush t = true ∧ p ∈ ((cfg0.win 3).blk t).view.set := by
  have h0 : (p 0).val < 16 := (p 0).isLt
  have h1 : (p 1).val < 1 := (p 1).isLt
  have h2 : (p 2).val < 4096 := (p 2).isLt
  have hN := N64
  have ht : 4 * (p 0).val + (p 2).val / 1024 < cfg0.N := by omega
  have e0 : win0_3.index ⟨4 * (p 0).val + (p 2).val / 1024, ht⟩ (0 : Fin 3) = (4 * (p 0).val + (p 2).val / 1024) / 4 :=
    (idx_facts ⟨_, ht⟩).2.2.2.2.2.2.2.2.2.1
  have e1 : win0_3.index ⟨4 * (p 0).val + (p 2).val / 1024, ht⟩ (1 : Fin 3) = 0 :=
    (idx_facts ⟨_, ht⟩).2.2.2.2.2.2.2.2.2.2.1
  have e2 : win0_3.index ⟨4 * (p 0).val + (p 2).val / 1024, ht⟩ (2 : Fin 3) = (4 * (p 0).val + (p 2).val / 1024) % 4 :=
    (idx_facts ⟨_, ht⟩).2.2.2.2.2.2.2.2.2.2.2
  refine ⟨⟨4 * (p 0).val + (p 2).val / 1024, ht⟩, flush0_3 _, ?_⟩
  rw [mem_blkCol]
  intro a
  match a with
  | ⟨0, _⟩ =>
    show win0_3.index ⟨_, ht⟩ (0 : Fin 3) * 1 ≤ (p 0).val ∧ (p 0).val < win0_3.index ⟨_, ht⟩ (0 : Fin 3) * 1 + 1
    rw [e0]; omega
  | ⟨1, _⟩ =>
    show win0_3.index ⟨_, ht⟩ (1 : Fin 3) * 1 ≤ (p 1).val ∧ (p 1).val < win0_3.index ⟨_, ht⟩ (1 : Fin 3) * 1 + 1
    rw [e1]; omega
  | ⟨2, _⟩ =>
    show win0_3.index ⟨_, ht⟩ (2 : Fin 3) * 1024 ≤ (p 2).val ∧ (p 2).val < win0_3.index ⟨_, ht⟩ (2 : Fin 3) * 1024 + 1024
    rw [e2]; omega

/-- The column-minimum array after the run. -/
theorem finalCol (c : Dev nD) : (dats m 0 c).arrAt 3 cfg0.N = colArr m c :=
  (dats m 0 c).arrAt_eq_of_cover 3 (colArr m c) (fun t _ => flushedCol_eq m c t) coverCol

/-! ## The row-minimum array -/

/-- What a batch's last point writes back into the row-minimum array is its block of `rowArr`. -/
theorem flushedRow_eq (c : Dev nD) (t : Fin cfg0.N) (hf : (cfg0.win 2).flush t = true) :
    (dats m 0 c).flushed 2 t = ((cfg0.win 2).blk t).view.read (Elt Ideal) (rowArr m c) := by
  have h3 : t.val % 4 = 3 := (flush0_2 t).mp hf
  obtain ⟨-, -, -, -, -, -, e0, e1, e2, -⟩ := idx_facts t
  show (cfg0.win 2).cut (grid0.coords t) ((dats m 0 c).after 2 t) = _
  rw [after0_2]
  funext y
  have h0 : (y 0).val < 1 := (y 0).isLt
  have h1 : (y 1).val < 32 := (y 1).isLt
  have h2 : (y 2).val < 128 := (y 2).isLt
  have ey : y = ix3 0 ⟨(y 1).val, h1⟩ ⟨(y 2).val, h2⟩ := funext fun a => Fin.ext (by
    match a with
    | ⟨0, _⟩ => show (y 0).val = 0; omega
    | ⟨1, _⟩ => rfl
    | ⟨2, _⟩ => rfl)
  rw [View.read_apply]
  show (outsAt0 m c t.val t.isLt).1 y = rowArr m c (((cfg0.win 2).blk t).view.emb y)
  refine (congrArg (outsAt0 m c t.val t.isLt).1 ey).trans
    ((row_value m c t.val t.isLt h3 ⟨(y 1).val, h1⟩ ⟨(y 2).val, h2⟩).trans ?_)
  unfold rowArr
  refine congr (congrArg (rowMin (X m c) (Y m c)) (Fin.ext ?_)) (Fin.ext ?_)
  · show t.val / 4 = win0_2.index t (0 : Fin 3) * 1 + 1 * (y 0).val
    rw [e0]; omega
  · show 128 * (y 1).val + (y 2).val
      = 128 * (win0_2.index t (1 : Fin 3) * 32 + 1 * (y 1).val) + (win0_2.index t (2 : Fin 3) * 128 + 1 * (y 2).val)
    rw [e1, e2]; omega

/-- A position of the row-minimum array is in point `t`'s block iff each coordinate is in the block's range. -/
theorem mem_blkRow (t : Fin cfg0.N) (p : S16x32x128.Idx) :
    p ∈ ((cfg0.win 2).blk t).view.set ↔ ∀ a : Fin 3, win0_2.index t a * S1x32x128.size a ≤ (p a).val
      ∧ (p a).val < win0_2.index t a * S1x32x128.size a + S1x32x128.size a := by
  show p ∈ ((View.whole main_v1_0).slice (win0_2.rect t)).set ↔ _
  rw [View.set_slice_whole, Rect.mem_set_unit]
  exact Iff.rfl

/-- Every position of the row-minimum array is in the block its batch's last point writes back. -/
theorem coverRow (p : S16x32x128.Idx) :
    ∃ t : Fin cfg0.N, (cfg0.win 2).flush t = true ∧ p ∈ ((cfg0.win 2).blk t).view.set := by
  have h0 : (p 0).val < 16 := (p 0).isLt
  have h1 : (p 1).val < 32 := (p 1).isLt
  have h2 : (p 2).val < 128 := (p 2).isLt
  have hN := N64
  have ht : 4 * (p 0).val + 3 < cfg0.N := by omega
  have e0 : win0_2.index ⟨4 * (p 0).val + 3, ht⟩ (0 : Fin 3) = (4 * (p 0).val + 3) / 4 :=
    (idx_facts ⟨_, ht⟩).2.2.2.2.2.2.1
  have e1 : win0_2.index ⟨4 * (p 0).val + 3, ht⟩ (1 : Fin 3) = 0 := (idx_facts ⟨_, ht⟩).2.2.2.2.2.2.2.1
  have e2 : win0_2.index ⟨4 * (p 0).val + 3, ht⟩ (2 : Fin 3) = 0 := (idx_facts ⟨_, ht⟩).2.2.2.2.2.2.2.2.1
  refine ⟨⟨4 * (p 0).val + 3, ht⟩, (flush0_2 _).mpr (by show (4 * (p 0).val + 3) % 4 = 3; omega), ?_⟩
  rw [mem_blkRow]
  intro a
  match a with
  | ⟨0, _⟩ =>
    show win0_2.index ⟨_, ht⟩ (0 : Fin 3) * 1 ≤ (p 0).val ∧ (p 0).val < win0_2.index ⟨_, ht⟩ (0 : Fin 3) * 1 + 1
    rw [e0]; omega
  | ⟨1, _⟩ =>
    show win0_2.index ⟨_, ht⟩ (1 : Fin 3) * 32 ≤ (p 1).val ∧ (p 1).val < win0_2.index ⟨_, ht⟩ (1 : Fin 3) * 32 + 32
    rw [e1]; omega
  | ⟨2, _⟩ =>
    show win0_2.index ⟨_, ht⟩ (2 : Fin 3) * 128 ≤ (p 2).val ∧ (p 2).val < win0_2.index ⟨_, ht⟩ (2 : Fin 3) * 128 + 128
    rw [e2]; omega

/-- The row-minimum array after the run. -/
theorem finalRow (c : Dev nD) : (dats m 0 c).arrAt 2 cfg0.N = rowArr m c :=
  (dats m 0 c).arrAt_eq_of_cover 2 (rowArr m c) (flushedRow_eq m c) coverRow

/-! ## The host's last stage, and the run -/

/-- The row-minimum array flattened to [16, 4096] is the array of row minima: (b, i) is position
    (b, i / 128, i % 128). -/
theorem flat_row (c : Dev nD) :
    shapeCast S16x4096 (rowArr m c) Facts₀.shapeCasts_S16x32x128_S16x4096 = rowMins (X m c) (Y m c) := by
  funext p
  have h0 : (p 0).val < 16 := (p 0).isLt
  have h1 : (p 1).val < 4096 := (p 1).isLt
  refine (shapeCast_apply _ Facts₀.shapeCasts_S16x32x128_S16x4096 p
    (ix3 (⟨(p 0).val, h0⟩ : Fin 16) (⟨(p 1).val / 128, by omega⟩ : Fin 32) (⟨(p 1).val % 128, Nat.mod_lt _ (by decide)⟩ : Fin 128))
    ?_).trans ?_
  · rw [Shape.rowMajor_val_three, Shape.rowMajor_val_two]
    show ((p 0).val * 32 + (p 1).val / 128) * 128 + (p 1).val % 128 = (p 0).val * 4096 + (p 1).val
    omega
  · unfold rowArr rowMins
    exact congr (congrArg (rowMin (X m c) (Y m c)) (Fin.ext rfl))
      (Fin.ext (by show 128 * ((p 1).val / 128) + (p 1).val % 128 = (p 1).val; omega))

/-- The column-minimum array flattened to [16, 4096] is the array of column minima: (b, j) is position (b, 0, j). -/
theorem flat_col (c : Dev nD) :
    shapeCast S16x4096 (colArr m c) Facts₀.shapeCasts_S16x1x4096_S16x4096 = colMins (X m c) (Y m c) := by
  funext p
  have h0 : (p 0).val < 16 := (p 0).isLt
  have h1 : (p 1).val < 4096 := (p 1).isLt
  refine (shapeCast_apply _ Facts₀.shapeCasts_S16x1x4096_S16x4096 p
    (ix3 (⟨(p 0).val, h0⟩ : Fin 16) (0 : Fin 1) (⟨(p 1).val, h1⟩ : Fin 4096)) ?_).trans ?_
  · rw [Shape.rowMajor_val_three, Shape.rowMajor_val_two]
    show ((p 0).val * 1 + 0) * 4096 + (p 1).val = (p 0).val * 4096 + (p 1).val
    omega
  · rfl

/-- The kernel's result, per batch: the mean of the row minima plus the mean of the column minima. -/
def result (c : Dev nD) : FVec Ideal SB .f32 :=
  meanSum Facts₀.reducesTo_S16x4096_S16_d1 Facts₀.h_S_ Facts₀.bcast_S_S16 (rowMins (X m c) (Y m c)) (colMins (X m c) (Y m c))

/-- What the host operations after the launch compute from the two output arrays. -/
theorem tail_value (c : Dev nD) :
    Pipeline.afterTail₀ cfgs (dats m) 0 (V0 m) [hostOps1] c main_v10 = result m c := by
  have eR : Pipeline.withArrays (cfgs 0).spec c (V0 m c) (fun w => (dats m 0 c).arrAt w (cfgs 0).N)
      (Proc.devRef .tc main_v1_0) = rowArr m c :=
    (Pipeline.withArrays_arr spec0 launch0.win.arr_inj c _ _ 2).trans (finalRow m c)
  have eC : Pipeline.withArrays (cfgs 0).spec c (V0 m c) (fun w => (dats m 0 c).arrAt w (cfgs 0).N)
      (Proc.devRef .tc main_v1_1) = colArr m c :=
    (Pipeline.withArrays_arr spec0 launch0.win.arr_inj c _ _ 3).trans (finalCol m c)
  unfold Pipeline.afterTail₀
  show StableHlo.after hostOps1 _ (Proc.devRef .tc main_v10) = _
  after_results
  rw [eR, eC]
  unfold result meanSum
  rw [← flat_row m c, ← flat_col m c]
  rfl

/-- The run, read: the result at `result`, both clouds unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v10 (Pipeline.mem_restRefs_of main_v10 (by decide) (by decide))).trans (tail_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Arrays

end
-- ==== Proof.RefValue.lean ====
/-
  The reference, read index by index over the extended reals.

  Its distance matrix at (b, i, j) is the expansion (‖x(b,i)‖² + ‖y(b,j)‖²) - 2·(x(b,i)·y(b,j)), each sum over the three
  coordinates started from zero: two row sums broadcast against each other, and a batched contraction of the
  coordinate axis.  On real coordinates that is the sum of squared differences (`expanded_eq_sqd`), so its minimum
  over `j` is `rowMin` and its minimum over `i` is `colMin`: each a minimum over one axis started from +∞, read as a
  fold over that axis's coordinates.
-/
import proofs.«124294_j50646254354947_2_alg».proof.Proof.Gen.ReferenceIdeal.Read
import proofs.«124294_j50646254354947_2_alg».proof.Proof.ChamferSpec
import Idealize.ShloMosaic.PureOps.Reduce

noncomputable section

namespace Cert.ReferenceIdeal.RefValue

open Idealize.ShloMosaic Idealize.ShloMosaic.ValueIdx
open Cert.ReferenceIdeal Cert.ReferenceIdeal.Read Cert.Chamfer

/-- The reference's distance matrix at (b, i, j) is the expansion. -/
theorem dist_apply (x y : Pts) (b : Fin 16) (i j : Fin 4096) :
    val_main_v12 (F := Ideal) x y (ix3 b i j) = expanded x y b i j := by
  have e1 : ∀ k : Fin 3, idx_main_v1 (idx_main_v2 (idx_main_v7 (ix3 b i j))) k = ix3 b i k := fun k =>
    funext fun a => Fin.ext (by match a with | ⟨0, _⟩ => rfl | ⟨1, _⟩ => rfl | ⟨2, _⟩ => rfl)
  have e2 : ∀ k : Fin 3, idx_main_v4 (idx_main_v5 (idx_main_v8 (ix3 b i j))) k = ix3 b j k := fun k =>
    funext fun a => Fin.ext (by match a with | ⟨0, _⟩ => rfl | ⟨1, _⟩ => rfl | ⟨2, _⟩ => rfl)
  have e3 : ∀ k : Fin 3, lidx_main_v6 (ix3 b i j) k = ix3 b i k := fun k =>
    funext fun a => Fin.ext (by match a with | ⟨0, _⟩ => rfl | ⟨1, _⟩ => rfl | ⟨2, _⟩ => rfl)
  have e4 : ∀ k : Fin 3, ridx_main_v6 (ix3 b i j) k = ix3 b j k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v2_apply,
    val_main_v1_apply, val_main_v8_apply, val_main_v5_apply, val_main_v4_apply, val_main_v10_apply, val_main_v6_apply]
  simp only [val_main_v0_apply, val_main_v3_apply, val_main_cst_apply, val_main_cst_0_apply, val_main_cst_1_apply,
    Ideal.subf_def, Ideal.addf_def, Ideal.mulf_def, Ideal.ofBits_def, e1, e2, e3, e4]
  rfl

theorem red_tile : S16x4096x4096.Reduces [2] S16x4096 := by decide
theorem red_point : S16x4096x4096.Reduces [1] S16x4096 := by decide

/-- On real coordinates the reference's minimum over the second cloud is `rowMin`. -/
theorem rowMin_eq (x y : Pts) (hx : Finite x) (hy : Finite y) (b : Fin 16) (i : Fin 4096) :
    val_main_v13 (F := Ideal) x y (ix2 b i) = rowMin x y b i := by
  unfold val_main_v13 rowMin
  refine (Host.reduce_eq_fold_single FloatOps.minimumf _ _ Facts₀.reducesTo_S16x4096x4096_S16x4096_d2 red_tile
    Facts₀.h_S_ (ix2 b i)).trans ?_
  show (Finset.univ : Finset (Fin 4096)).fold min W
    (fun j => val_main_v12 (F := Ideal) x y (red_tile.lift (ix2 b i) j)) = _
  refine Finset.fold_congr fun j _ => ?_
  rw [show red_tile.lift (ix2 b i) j = ix3 b i j from
    funext fun a => Fin.ext (by match a with | ⟨0, _⟩ => rfl | ⟨1, _⟩ => rfl | ⟨2, _⟩ => rfl)]
  exact (dist_apply x y b i j).trans (expanded_eq_sqd x y hx hy b i j)

/-- On real coordinates the reference's minimum over the first cloud is `colMin`. -/
theorem colMin_eq (x y : Pts) (hx : Finite x) (hy : Finite y) (b : Fin 16) (j : Fin 4096) :
    val_main_v14 (F := Ideal) x y (ix2 b j) = colMin x y b j := by
  unfold val_main_v14 colMin
  refine (Host.reduce_eq_fold_single FloatOps.minimumf _ _ Facts₀.reducesTo_S16x4096x4096_S16x4096_d1 red_point
    Facts₀.h_S_ (ix2 b j)).trans ?_
  show (Finset.univ : Finset (Fin 4096)).fold min W
    (fun i => val_main_v12 (F := Ideal) x y (red_point.lift (ix2 b j) i)) = _
  refine Finset.fold_congr fun i _ => ?_
  rw [show red_point.lift (ix2 b j) i = ix3 b i j from
    funext fun a => Fin.ext (by match a with | ⟨0, _⟩ => rfl | ⟨1, _⟩ => rfl | ⟨2, _⟩ => rfl)]
  exact (dist_apply x y b i j).trans (expanded_eq_sqd x y hx hy b i j)

end Cert.ReferenceIdeal.RefValue

end
-- ==== Proof.Finiteness.lean ====
/-
  The precondition, decoded: when `|x| < +∞` holds of every entry of both argument arrays (the conjunction of two
  all-reductions the precondition prints), every entry is a real number.  An extended real whose absolute value
  max(x, -x) is strictly below +∞ is neither +∞ (its own absolute value) nor -∞ (whose negation is +∞).
-/
import proofs.«124294_j50646254354947_2_alg».proof.Proof.Gen.Pre_finite_inputs
import proofs.«124294_j50646254354947_2_alg».proof.Proof.ChamferSpec
import Idealize.ShloMosaic.Lib.ReduceAll
import Idealize.ShloMosaic.Lib.Affine
import Idealize.ShloMosaic.PureOps.Ideal.Laws

noncomputable section

namespace Cert.Pre_finite_inputs.Decode

open Idealize.ShloMosaic Idealize.ShloMosaic.ValueIdx
open Cert.Pre_finite_inputs Cert.Chamfer Cert.Lib.MinFold

instance : Subsingleton S_.Idx := ⟨fun a b => funext fun d => d.elim0⟩

/-- The precondition all ones: every entry of both arrays is a real number. -/
theorem finite_of_pre (x y : Pts) (h : fn (F := Ideal) x y = fun _ => 1#1) : Finite x ∧ Finite y := by
  have h0 := congrFun h ix0
  dsimp only [fn] at h0
  obtain ⟨hA, hB⟩ := IntOp.andi_eq_one.1 h0
  exact ⟨fun p => real_of_abs_lt _ (Host.reduce_andi_all _ _ _ _ _ hA p),
    fun p => real_of_abs_lt _ (Host.reduce_andi_all _ _ _ _ _ hB p)⟩

end Cert.Pre_finite_inputs.Decode

end
-- ==== Proof.lean ====
/-
  The Chamfer distance of two point clouds: a tiled kernel against its reference, equal over the extended reals on
  finite inputs.

  Both programs compute, per batch, the mean over the first cloud of the squared distance to the nearest point of the
  second, plus the mean over the second cloud of the squared distance to the nearest point of the first.  They differ
  in two places.  The kernel forms a squared distance as the sum of the three squared coordinate differences; the
  reference expands it as (‖a‖² + ‖b‖²) - 2·(a·b).  Over the reals these are one number (a ring identity), over the
  extended reals they are not (∞ - ∞), so this is where the precondition — every input entry finite — is used.  And
  the kernel takes the minimum over the second cloud 1024 points at a time, folding each tile's minimum into a running
  minimum it carries between grid steps, where the reference takes one minimum over all 4096: equal because a value
  is bounded below by the folded minimum exactly when it is bounded below by +∞ and by every one of the 4096
  distances, whichever way they are grouped.  The column minima, the two means and their sum are the same
  operations in both programs.

  The three frames are the generated frame proofs (the reference's, its generated run with the result dropped);
  the idealization rewrote nothing, so it is preserved trivially.
-/
import proofs.«124294_j50646254354947_2_alg».proof.Defs
import proofs.«124294_j50646254354947_2_alg».proof.Proof.Gen.Kernel
import proofs.«124294_j50646254354947_2_alg».proof.Proof.Gen.Kernel.Skeleton
import proofs.«124294_j50646254354947_2_alg».proof.Proof.Gen.Kernel.Launch
import proofs.«124294_j50646254354947_2_alg».proof.Proof.Gen.Kernel.Points
import proofs.«124294_j50646254354947_2_alg».proof.Proof.Gen.Kernel.Frame
import proofs.«124294_j50646254354947_2_alg».proof.Proof.Gen.KernelIdeal
import proofs.«124294_j50646254354947_2_alg».proof.Proof.Gen.KernelIdeal.Skeleton
import proofs.«124294_j50646254354947_2_alg».proof.Proof.Gen.KernelIdeal.Launch
import proofs.«124294_j50646254354947_2_alg».proof.Proof.Gen.KernelIdeal.Points
import proofs.«124294_j50646254354947_2_alg».proof.Proof.Gen.KernelIdeal.Frame
import proofs.«124294_j50646254354947_2_alg».proof.Proof.Gen.ReferenceIdeal
import proofs.«124294_j50646254354947_2_alg».proof.Proof.Gen.ReferenceIdeal.Run
import proofs.«124294_j50646254354947_2_alg».proof.Proof.Gen.ReferenceIdeal.Read
import proofs.«124294_j50646254354947_2_alg».proof.Proof.Gen.Pre_finite_inputs
import proofs.«124294_j50646254354947_2_alg».proof.Proof.KernelArrays
import proofs.«124294_j50646254354947_2_alg».proof.Proof.RefValue
import proofs.«124294_j50646254354947_2_alg».proof.Proof.Finiteness
import Idealize.ShloMosaic.Adequacy
import Idealize.ShloMosaic.Init

noncomputable section

namespace Cert.Proof

open Idealize.ShloMosaic Idealize.SL.Sem Idealize.ShloMosaic.ValueIdx Cert.Chamfer

/-- On real coordinates the reference's result is the mean of the row minima plus the mean of the column minima:
    its two minimum reductions are `rowMin` and `colMin` index by index, and what follows them is `meanSum`. -/
theorem ref_result (x y : Pts) (hx : Finite x) (hy : Finite y) :
    Cert.ReferenceIdeal.Read.val_main_v21 (F := Ideal) x y
      = meanSum Cert.ReferenceIdeal.Facts₀.reducesTo_S16x4096_S16_d1 Cert.ReferenceIdeal.Facts₀.h_S_
          Cert.ReferenceIdeal.Facts₀.bcast_S_S16 (rowMins x y) (colMins x y) := by
  have e13 : Cert.ReferenceIdeal.Read.val_main_v13 (F := Ideal) x y = rowMins x y := funext fun p =>
    (congrArg (Cert.ReferenceIdeal.Read.val_main_v13 (F := Ideal) x y) (eq_ix2 p)).trans
      (Cert.ReferenceIdeal.RefValue.rowMin_eq x y hx hy (p 0) (p 1))
  have e14 : Cert.ReferenceIdeal.Read.val_main_v14 (F := Ideal) x y = colMins x y := funext fun p =>
    (congrArg (Cert.ReferenceIdeal.Read.val_main_v14 (F := Ideal) x y) (eq_ix2 p)).trans
      (Cert.ReferenceIdeal.RefValue.colMin_eq x y hx hy (p 0) (p 1))
  unfold Cert.ReferenceIdeal.Read.val_main_v21 Cert.ReferenceIdeal.Read.val_main_v17 Cert.ReferenceIdeal.Read.val_main_v20
    Cert.ReferenceIdeal.Read.val_main_v15 Cert.ReferenceIdeal.Read.val_main_v18
  rw [e13, e14]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on two finite clouds both programs end at the same mean-sum of the same minima. -/
theorem algebraic : Cert.algebraic_KernelIdeal_ReferenceIdeal := by
  intro m ρ m' ρ' hpre hagree
  have hfin : ∀ c, Finite (Cert.KernelIdeal.Points.X m c) ∧ Finite (Cert.KernelIdeal.Points.Y m c) := fun c =>
    Cert.Pre_finite_inputs.Decode.finite_of_pre _ _ (hpre c)
  refine ⟨fun c => Cert.KernelIdeal.Arrays.result m c, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  exact ref_result _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
